-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4x64 : Shape := ⟨2, ![4, 64]⟩
abbrev S16x64 : Shape := ⟨2, ![16, 64]⟩
abbrev S4x16 : Shape := ⟨2, ![4, 16]⟩
abbrev S1000000 : Shape := ⟨1, ![1000000]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4x64 : S_.BroadcastsInDim S4x64 (![] : Fin 0 → Fin S4x64.rank)
  reducesTo_S4x64_S_d0_1 : S4x64.ReducesTo [0, 1] S_
  bcast_S_S16x64 : S_.BroadcastsInDim S16x64 (![] : Fin 0 → Fin S16x64.rank)
  reducesTo_S16x64_S_d0_1 : S16x64.ReducesTo [0, 1] S_
  bcast_S_S4x16 : S_.BroadcastsInDim S4x16 (![] : Fin 0 → Fin S4x16.rank)
  reducesTo_S4x16_S_d0_1 : S4x16.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : FVec F S4x16 .f32) (main_arg5 : FVec F S1000000 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S4x16 .f32 := Host.absf main_arg4
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : FVec F S4x64 .f32) (main_arg3 : FVec F S16x64 .f32) (main_arg4 : FVec F S4x16 .f32) (main_arg5 : FVec F S1000000 .f32) (main_arg6 : IVec S1600000 32) (main_arg7 : IVec S1600000 32) (main_arg8 : IVec S1600000 32) (main_arg9 : IVec S1000000 32) (main_arg10 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_v13 main_v16
-- ==== Kernel.lean ====
abbrev S100000x64 : Shape := ⟨2, ![100000, 64]⟩
abbrev S50000x64 : Shape := ⟨2, ![50000, 64]⟩
abbrev S4x64 : Shape := ⟨2, ![4, 64]⟩
abbrev S16x64 : Shape := ⟨2, ![16, 64]⟩
abbrev S4x16 : Shape := ⟨2, ![4, 16]⟩
abbrev S1000000 : Shape := ⟨1, ![1000000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩
abbrev S5000 : Shape := ⟨1, ![5000]⟩
abbrev S5000x1 : Shape := ⟨2, ![5000, 1]⟩
abbrev S100000 : Shape := ⟨1, ![100000]⟩
abbrev S100000x1 : Shape := ⟨2, ![100000, 1]⟩
abbrev S1000000x1 : Shape := ⟨2, ![1000000, 1]⟩
abbrev S1000000x64 : Shape := ⟨2, ![1000000, 64]⟩
abbrev S4 : Shape := ⟨1, ![4]⟩
abbrev S4x1 : Shape := ⟨2, ![4, 1]⟩
abbrev S64x4 : Shape := ⟨2, ![64, 4]⟩
abbrev S5000x4 : Shape := ⟨2, ![5000, 4]⟩

abbrev nBuf : Space → Nat
  | .hbm => 89
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4x64, .f32⟩
  | .hbm, ⟨3, _⟩ => ⟨S16x64, .f32⟩
  | .hbm, ⟨4, _⟩ => ⟨S4x16, .f32⟩
  | .hbm, ⟨5, _⟩ => ⟨S1000000, .f32⟩
  | .hbm, ⟨6, _⟩ => ⟨S1600000, .i32⟩
  | .hbm, ⟨7, _⟩ => ⟨S1600000, .i32⟩
  | .hbm, ⟨8, _⟩ => ⟨S1600000, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S1000000x1, .f32⟩
  | .hbm, ⟨68, _⟩ => ⟨S1000000x64, .f32⟩
  | .hbm, ⟨69, _⟩ => ⟨S_, .f32⟩
  | .hbm, ⟨70, _⟩ => ⟨S50000x64, .f32⟩
  | .hbm, ⟨71, _⟩ => ⟨S1000000x1, .i32⟩
  | .hbm, ⟨72, _⟩ => ⟨S50000x64, .f32⟩
  | .hbm, ⟨73, _⟩ => ⟨S_, .f32⟩
  | .hbm, ⟨74, _⟩ => ⟨S4, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S4x1, .f32⟩
  | .hbm, ⟨79, _⟩ => ⟨S4x16, .f32⟩
  | .hbm, ⟨80, _⟩ => ⟨S4x16, .f32⟩
  | .hbm, ⟨81, _⟩ => ⟨S4x16, .f32⟩
  | .hbm, ⟨82, _⟩ => ⟨S_, .f32⟩
  | .hbm, ⟨83, _⟩ => ⟨S4, .f32⟩
  | .hbm, ⟨84, _⟩ => ⟨S4x1, .f32⟩
  | .hbm, ⟨85, _⟩ => ⟨S4x16, .f32⟩
  | .hbm, ⟨86, _⟩ => ⟨S4x16, .f32⟩
  | .hbm, ⟨87, _⟩ => ⟨S4x64, .f32⟩
  | .hbm, ⟨88, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S4x64, .f32⟩
  | .local _ .vmem, ⟨17, _⟩ => ⟨S4x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bcast_S_S50000x64 : S_.BroadcastsInDim S50000x64 (![] : Fin 0 → Fin S50000x64.rank)
  reducesTo_S4x16_S4_d1 : S4x16.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  transposes_S4x64_p1_0_S64x4 : S4x64.Transposes [1, 0] S64x4
  reduces_S5000x4_S5000 : S5000x4.Reduces [1] S5000
  broadcasts_S5000x1_S5000x4 : S5000x1.Broadcasts S5000x4
  shapeCasts_S4x64_S4x64 : S4x64.ShapeCasts S4x64
  gather_S100000x64_S1600000x1_S1600000x64_1_0_n_n_0_1_164_wf : GatherDims.WF S100000x64 S1600000x1 S1600000x64 [1] [0] [] [0] [] 1 ![1, 64]
  gather_S16x64_S1600000x1_S1600000x64_1_0_n_n_0_1_164_wf : GatherDims.WF S16x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S4x16_S16x64_S4x64_1_0_0_1_n_n_wf : DotDims.WF S4x16 S16x64 S4x64 [1] [0] [0] [1] [] []
  dot_S5000x64_S64x4_S5000x4_1_0_0_1_n_n_wf : DotDims.WF S5000x64 S64x4 S5000x4 [1] [0] [0] [1] [] []
  dot_S5000x4_S4x64_S5000x64_1_0_0_1_n_n_wf : DotDims.WF S5000x4 S4x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1600000x64.size a
  hwx0_0 : ∀ i : grid0.Coords, EltTy.bits .f32 = 32 ∨ (Rect.block (s := S1600000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1600000x64.size a
  hwx0_1 : ∀ i : grid0.Coords, EltTy.bits .f32 = 32 ∨ (Rect.block (s := S1600000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1600000x64.size a
  hwx0_2 : ∀ i : grid0.Coords, EltTy.bits .f32 = 32 ∨ (Rect.block (s := S1600000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S1600000x64.size a
  hwx0_3 : ∀ i : grid0.Coords, EltTy.bits .f32 = 32 ∨ (Rect.block (s := S1600000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S1000000x1.size a
  hwx1_0 : ∀ i : grid1.Coords, EltTy.bits .f32 = 32 ∨ (Rect.block (s := S1000000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1000000x64.size a
  hwx1_1 : ∀ i : grid1.Coords, EltTy.bits .f32 = 32 ∨ (Rect.block (s := S1000000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1000000x64.size a
  hwx1_2 : ∀ i : grid1.Coords, EltTy.bits .f32 = 32 ∨ (Rect.block (s := S1000000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x64.size a ≤ S4x64.size a
  hwx2_1 : ∀ i : grid2.Coords, EltTy.bits .f32 = 32 ∨ (Rect.block (s := S4x64) S4x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64.size a ≤ S4x64.size a
  hwx2_2 : ∀ i : grid2.Coords, EltTy.bits .f32 = 32 ∨ (Rect.block (s := S4x64) S4x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S16x64_S1600000x1_S1600000x64_1_0_n_n_0_1_164 : GatherDims S16x64 S1600000x1 S1600000x64 where
  offsetDims := [1]
  collapsedSliceDims := [0]
  operandBatchingDims := []
  startIndicesBatchingDims := []
  startIndexMap := [0]
  indexVectorDim := 1
  sliceSizes := ![1, 64]
  wf := gather_S16x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S4x16_S16x64_S4x64_1_0_0_1_n_n : DotDims S4x16 S16x64 S4x64 where
  lhsContracting := [1]
  rhsContracting := [0]
  lhsNonContracting := [0]
  rhsNonContracting := [1]
  lhsBatch := []
  rhsBatch := []
  wf := dot_S4x16_S16x64_S4x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S4x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4x64 : Shape := ⟨2, ![4, 64]⟩
abbrev S16x64 : Shape := ⟨2, ![16, 64]⟩
abbrev S4x16 : Shape := ⟨2, ![4, 16]⟩
abbrev S1000000 : Shape := ⟨1, ![1000000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x4 : Shape := ⟨2, ![64, 4]⟩
abbrev S50000x4 : Shape := ⟨2, ![50000, 4]⟩
abbrev S50000 : Shape := ⟨1, ![50000]⟩
abbrev S50000x1 : Shape := ⟨2, ![50000, 1]⟩
abbrev S50000x4x1 : Shape := ⟨3, ![50000, 4, 1]⟩
abbrev S1000000x1 : Shape := ⟨2, ![1000000, 1]⟩
abbrev S1000000x64 : Shape := ⟨2, ![1000000, 64]⟩
abbrev S4 : Shape := ⟨1, ![4]⟩
abbrev S4x1 : Shape := ⟨2, ![4, 1]⟩
abbrev S1x4x64 : Shape := ⟨3, ![1, 4, 64]⟩
abbrev S50000x4x64 : Shape := ⟨3, ![50000, 4, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S50000x64, .f32⟩
  | 2 => ⟨S4x64, .f32⟩
  | 3 => ⟨S16x64, .f32⟩
  | 4 => ⟨S4x16, .f32⟩
  | 5 => ⟨S1000000, .f32⟩
  | 6 => ⟨S1600000, .i32⟩
  | 7 => ⟨S1600000, .i32⟩
  | 8 => ⟨S1600000, .i32⟩
  | 9 => ⟨S1000000, .i32⟩
  | 10 => ⟨S1000000, .i32⟩
  | 11 => ⟨S_, .i32⟩
  | 12 => ⟨S1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x64, .f32⟩
  | 33 => ⟨S_, .f32⟩
  | 34 => ⟨S1600000, .f32⟩
  | 35 => ⟨S1600000, .f32⟩
  | 36 => ⟨S1600000, .f32⟩
  | 37 => ⟨S_, .f32⟩
  | 38 => ⟨S1600000, .f32⟩
  | 39 => ⟨S1600000, .f32⟩
  | 40 => ⟨S_, .f32⟩
  | 41 => ⟨S1600000, .f32⟩
  | 42 => ⟨S1600000, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1600000, .f32⟩
  | 61 => ⟨S_, .f32⟩
  | 62 => ⟨S1600000, .f32⟩
  | 63 => ⟨S_, .f32⟩
  | 64 => ⟨S100000, .f32⟩
  | 65 => ⟨S1600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S64x4, .f32⟩
  | 74 => ⟨S50000x4, .f32⟩
  | 75 => ⟨S_, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x4, .f32⟩
  | 82 => ⟨S50000x4, .f32⟩
  | 83 => ⟨S50000x4, .f32⟩
  | 84 => ⟨S_, .f32⟩
  | 85 => ⟨S50000, .f32⟩
  | 86 => ⟨S50000x1, .f32⟩
  | 87 => ⟨S50000x4, .f32⟩
  | 88 => ⟨S50000x4, .f32⟩
  | 89 => ⟨S50000x4x1, .f32⟩
  | 90 => ⟨S1000000x1, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S1000000x64, .f32⟩
  | 101 => ⟨S1000000x64, .f32⟩
  | 102 => ⟨S_, .f32⟩
  | 103 => ⟨S50000x64, .f32⟩
  | 104 => ⟨S1000000x1, .i32⟩
  | 105 => ⟨S50000x64, .f32⟩
  | 106 => ⟨S_, .f32⟩
  | 107 => ⟨S4, .f32⟩
  | 108 => ⟨S_, .f32⟩
  | 109 => ⟨S4, .f32⟩
  | 110 => ⟨S4, .f32⟩
  | 111 => ⟨S4x1, .f32⟩
  | 112 => ⟨S4x16, .f32⟩
  | 113 => ⟨S4x16, .f32⟩
  | 114 => ⟨S4x16, .f32⟩
  | 115 => ⟨S_, .f32⟩
  | 116 => ⟨S4, .f32⟩
  | 117 => ⟨S4x1, .f32⟩
  | 118 => ⟨S4x16, .f32⟩
  | 119 => ⟨S4x16, .f32⟩
  | 120 => ⟨S4x64, .f32⟩
  | 121 => ⟨S1x4x64, .f32⟩
  | 122 => ⟨S50000x4x64, .f32⟩
  | 123 => ⟨S50000x4x64, .f32⟩
  | 124 => ⟨S50000x4x64, .f32⟩
  | 125 => ⟨S_, .f32⟩
  | 126 => ⟨S50000x64, .f32⟩
  | 127 => ⟨S50000x64, .f32⟩
  | _ => ⟨S100000x64, .f32⟩

abbrev hbmTy0_1 (i : Nat) : BufTy := match i % 128 with
  | 0 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_15 : Ref sig .tc := ⟨.hbm, 91, rfl⟩
abbrev main_v63 : Ref sig .tc := ⟨.hbm, 92, rfl⟩
abbrev main_v64 : Ref sig .tc := ⟨.hbm, 93, rfl⟩
abbrev main_c_16 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_18 : Ref sig .tc := ⟨.hbm, 106, rfl⟩
abbrev main_v75 : Ref sig .tc := ⟨.hbm, 107, rfl⟩
abbrev main_cst_19 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_20 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_21 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S1600000x1_S1600000 : S1600000x1.ShapeCasts S1600000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S4x64_S64x4_1_0 : S4x64.Transposes [1, 0] S64x4
  reducesTo_S50000x4_S50000_d1 : S50000x4.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S50000x4_S50000x4x1_0_1 : S50000x4.BroadcastsInDim S50000x4x1 (![0, 1] : Fin 2 → Fin S50000x4x1.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  reducesTo_S4x16_S4_d1 : S4x16.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  bcast_S4x64_S1x4x64_1_2 : S4x64.BroadcastsInDim S1x4x64 (![1, 2] : Fin 2 → Fin S1x4x64.rank)
  bcast_S1x4x64_S50000x4x64_0_1_2 : S1x4x64.BroadcastsInDim S50000x4x64 (![0, 1, 2] : Fin 3 → Fin S50000x4x64.rank)
  bcast_S50000x4x1_S50000x4x64_0_1_2 : S50000x4x1.BroadcastsInDim S50000x4x64 (![0, 1, 2] : Fin 3 → Fin S50000x4x64.rank)
  reducesTo_S50000x4x64_S50000x64_d1 : S50000x4x64.ReducesTo [1] S50000x64
  gather_S16x64_S1600000x1_S1600000x64_1_0_n_n_0_1_164_wf : GatherDims.WF S16x64 S1600000x1 S1600000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S50000x64_S64x4_S50000x4_1_0_0_1_n_n_wf : DotDims.WF S50000x64 S64x4 S50000x4 [1] [0] [0] [1] [] []
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S4x16_S16x64_S4x64_1_0_0_1_n_n_wf : DotDims.WF S4x16 S16x64 S4x64 [1] [0] [0] [1] [] []

variable [Facts₀]

def gather_S16x64_S1600000x1_S1600000x64_1_0_n_n_0_1_164 : GatherDims S16x64 S1600000x1 S1600000x64 where
  offsetDims := [1]
  collapsedSliceDims := [0]
  operandBatchingDims := []
  startIndicesBatchingDims := []
  startIndexMap := [0]
  indexVectorDim := 1
  sliceSizes := ![1, 64]
  wf := gather_S16x64_S1600000x1_S1600000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S4x16_S16x64_S4x64_1_0_0_1_n_n : DotDims S4x16 S16x64 S4x64 where
  lhsContracting := [1]
  rhsContracting := [0]
  lhsNonContracting := [0]
  rhsNonContracting := [1]
  lhsBatch := []
  rhsBatch := []
  wf := dot_S4x16_S16x64_S4x64_1_0_0_1_n_n_wf

class Facts : Prop extends Facts₀ where

variable [Facts]
-- ==== Proof.KernelRun.lean ====
/-
  The idealized kernel program's run with its results named.

  The program is six segments: three stretches of host operations, each followed by a pipelined region.  Its frame
  certificate follows the buffer contents from the launch through every segment boundary and ends with every
  unscoped buffer of a core at the last boundary's contents.  Read at the two result buffers and at the argument
  buffers, that is: every weakly fair execution terminates, the two results hold the last boundary's contents, and the
  arguments are as launched.
-/
import proofs.«104708_j67336497267219_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the two result buffers end at the contents of the last segment boundary and
    the argument arrays as launched. -/
theorem run_results : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Whole

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.Spec.lean ====
/-
  The formulas of one edge message and of one user's gate, on the extended reals.

  An edge with head row a, tail entry t and relation row r sends, in channel c, the message
  σ(Σ_k a_k r_k) · (t · r_c), with σ the logistic function.  A user with logits z_1 … z_n over the latent factors
  weighs factor f by exp (z_f − M) / Σ_g exp (z_g − M), where M is the larger of −∞ and the maximum of the logits
  (the maximum itself, written the way both programs compute it).
-/
import Idealize.ShloMosaic.PureOps.Ideal

noncomputable section

namespace Cert.Spec

open Idealize.ShloMosaic

/-- The logistic gate of an edge times the product of its tail entry and relation entry. -/
def edgeMsg {n : Nat} (a r : Fin n → EReal) (t rc : EReal) : EReal :=
  Ideal.logistic (∑ k, a k * r k) * (t * rc)

/-- The shift of a row of logits: the larger of the value of the word of −∞ and the fold of `max` over the row from it. -/
def shift {n : Nat} (z : Fin n → EReal) : EReal :=
  max (Ideal.ofBits .f32 0xFF800000#32) ((Finset.univ : Finset (Fin n)).fold max (Ideal.ofBits .f32 0xFF800000#32) z)

/-- The softmax weight of entry `f` of a row of logits. -/
def weight {n : Nat} (z : Fin n → EReal) (f : Fin n) : EReal :=
  Ideal.div (Ideal.exp (z f - shift z)) (∑ g, Ideal.exp (z g - shift z))

/-- A user's gated aggregate in one channel: the aggregate times the weighted sum of the factors' entries, plus the
    aggregate. -/
def gated {n : Nat} (z : Fin n → EReal) (d : Fin n → EReal) (u : EReal) : EReal :=
  u * (∑ f, weight z f * d f) + u

end Cert.Spec

end
-- ==== Proof.BodyEdge.lean ====
/-
  The bodies of the edge kernel and of the scaling kernel, read at one index of a block.

  The edge kernel's block of 5000 edges by 64 channels holds, at (p, q), the message of edge p in channel q: the
  logistic of the sum over the channels of head row times relation row, times the tail entry times the relation entry.
  The scaling kernel's block holds, at (p, q), the interaction value of row p times the gathered entry at (p, q).
-/
import proofs.«104708_j67336497267219_1_alg».proof.Proof.Gen.KernelIdeal.Skeleton
import proofs.«104708_j67336497267219_1_alg».proof.Proof.LibRowOps
import proofs.«104708_j67336497267219_1_alg».proof.Proof.Spec

noncomputable section

namespace Cert.KernelIdeal.Body

open Idealize.ShloMosaic Idealize.ShloMosaic.ValueIdx Cert.RowOps Cert.KernelIdeal Cert.Spec
open Cert.KernelIdeal.Facts₀ Cert.KernelIdeal.Facts

/-- The gate of edge p: the logistic of the sum over the channels of the products of the two rows. -/
theorem gate_column (x0 x2 : FVec Ideal S5000x64 .f32) (p : Fin 5000) (q : Fin 64) :
    broadcastTo S5000x64 (logistic (F := Ideal) (shapeCast S5000x1 (multiReduction (F := Ideal) .add [1] S5000 (mulf x0 x2) 0x00000000#32
        reduces_S5000x64_S5000 (.inl rfl) rfl) shapeCasts_S5000_S5000x1)) broadcasts_S5000x1_S5000x64 (ix2 p q)
      = Ideal.logistic (∑ k : Fin 64, x0 (ix2 p k) * x2 (ix2 p k)) :=
  (spread_apply _ broadcasts_S5000x1_S5000x64 p q).trans
    (congrArg Ideal.logistic ((column_apply _ shapeCasts_S5000_S5000x1 p 0).trans
      (rowSum_apply (mulf x0 x2) 0x00000000#32 reduces_S5000x64_S5000 (.inl rfl) rfl p)))

/-- The edge kernel's stored block at (p, q). -/
theorem edge_apply (x0 x1 x2 : Vec Ideal S5000x64 .f32) (p : Fin 5000) (q : Fin 64) :
    Gen.k0_pay1 (F := Ideal) x0 x1 x2 (ix2 p q)
      = edgeMsg (fun k : Fin 64 => x0 (ix2 p k)) (fun k => x2 (ix2 p k)) (x1 (ix2 p q)) (x2 (ix2 p q)) := by
  unfold Gen.k0_pay1 edgeMsg
  simp only [shapeCast_self]
  exact congrArg (· * (x1 (ix2 p q) * x2 (ix2 p q))) (gate_column x0 x2 p q)

/-- The scaling kernel's stored block at (p, q). -/
theorem scale_apply (x0 : Vec Ideal S5000x1 .f32) (x1 : Vec Ideal S5000x64 .f32) (p : Fin 5000) (q : Fin 64) :
    Gen.k1_pay1 (F := Ideal) x0 x1 (ix2 p q) = x0 (ix2 p (0 : Fin 1)) * x1 (ix2 p q) := by
  unfold Gen.k1_pay1
  simp only [shapeCast_self]
  exact congrArg (· * x1 (ix2 p q)) (spread_apply x0 broadcasts_S5000x1_S5000x64 p q)

end Cert.KernelIdeal.Body

end
-- ==== Proof.ArraysEdge.lean ====
/-
  The edge region's output array as one function of its three input arrays.

  The region's grid has 320 points; point t reads rows 5000·t … 5000·t + 4999 of each of the three [1600000, 64]
  arrays and writes the same rows of the output.  A message depends only on its own edge's rows, so the block point t
  writes is the restriction to those rows of one function of the whole arrays, and the 320 blocks tile the output:
  after the region the output array is that function.
-/
import proofs.«104708_j67336497267219_1_alg».proof.Proof.Gen.KernelIdeal.Frame
import proofs.«104708_j67336497267219_1_alg».proof.Proof.BodyEdge
set_option maxRecDepth 16384

noncomputable section

namespace Cert.KernelIdeal.Arrays

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open Cert.KernelIdeal.Facts₀ Cert.KernelIdeal.Facts

variable (V : (c : Dev nD) → (b : Ref sig .tc) → Buf (Elt Ideal) ((c : Thread nD τ).loc b))

theorem zeros2 : (![0, 0] : Fin 2 → Nat) = fun _ => 0 := funext fun a => by fin_cases a <;> rfl

/-- Every window of the edge region sits at block (t, 0) at point t. -/
theorem idx0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Window 0's block at point `t` is rows `5000·t … 5000·t + 4999` of its array. -/
theorem blk0_0 (c : Dev nD) (t : Fin cfg0.N) (x : S5000x64.Idx) (k : S1600000x64.Idx)
    (hk0 : (k 0).val = 5000 * t.val + (x 0).val) (hk1 : (k 1).val = (x 1).val) :
    (iblk0 V c 0 t : Vec Ideal S5000x64 .f32) x = (V c (Pipeline.arrRef spec0 0) : S1600000x64.Idx → Ideal .f32) k := by
  have hi := (idx0 t).1
  unfold iblk0
  rw [View.read_apply]
  refine congrArg (V c (Pipeline.arrRef spec0 0) : S1600000x64.Idx → Ideal .f32) ?_
  funext a
  apply Fin.ext
  match a with
  | ⟨0, _⟩ => show win0_0.index t 0 * 5000 + 1 * (x 0).val = (k 0).val; rw [hi.1, hk0]; omega
  | ⟨1, _⟩ => show win0_0.index t 1 * 64 + 1 * (x 1).val = (k 1).val; rw [hi.2, hk1]; omega

/-- Window 1's block at point `t` is rows `5000·t … 5000·t + 4999` of its array. -/
theorem blk0_1 (c : Dev nD) (t : Fin cfg0.N) (x : S5000x64.Idx) (k : S1600000x64.Idx)
    (hk0 : (k 0).val = 5000 * t.val + (x 0).val) (hk1 : (k 1).val = (x 1).val) :
    (iblk0 V c 1 t : Vec Ideal S5000x64 .f32) x = (V c (Pipeline.arrRef spec0 1) : S1600000x64.Idx → Ideal .f32) k := by
  have hi := (idx0 t).2.1
  unfold iblk0
  rw [View.read_apply]
  refine congrArg (V c (Pipeline.arrRef spec0 1) : S1600000x64.Idx → Ideal .f32) ?_
  funext a
  apply Fin.ext
  match a with
  | ⟨0, _⟩ => show win0_1.index t 0 * 5000 + 1 * (x 0).val = (k 0).val; rw [hi.1, hk0]; omega
  | ⟨1, _⟩ => show win0_1.index t 1 * 64 + 1 * (x 1).val = (k 1).val; rw [hi.2, hk1]; omega

/-- Window 2's block at point `t` is rows `5000·t … 5000·t + 4999` of its array. -/
theorem blk0_2 (c : Dev nD) (t : Fin cfg0.N) (x : S5000x64.Idx) (k : S1600000x64.Idx)
    (hk0 : (k 0).val = 5000 * t.val + (x 0).val) (hk1 : (k 1).val = (x 1).val) :
    (iblk0 V c 2 t : Vec Ideal S5000x64 .f32) x = (V c (Pipeline.arrRef spec0 2) : S1600000x64.Idx → Ideal .f32) k := by
  have hi := (idx0 t).2.2.1
  unfold iblk0
  rw [View.read_apply]
  refine congrArg (V c (Pipeline.arrRef spec0 2) : S1600000x64.Idx → Ideal .f32) ?_
  funext a
  apply Fin.ext
  match a with
  | ⟨0, _⟩ => show win0_2.index t 0 * 5000 + 1 * (x 0).val = (k 0).val; rw [hi.1, hk0]; omega
  | ⟨1, _⟩ => show win0_2.index t 1 * 64 + 1 * (x 1).val = (k 1).val; rw [hi.2, hk1]; omega

/-- Every edge's messages, from the gathered head rows, tail rows and relation rows. -/
def edges (A0 A1 A2 : S1600000x64.Idx → EReal) : S1600000x64.Idx → EReal := fun i =>
  edgeMsg (fun k : Fin 64 => A0 (ix2 (i 0 : Fin 1600000) k)) (fun k => A2 (ix2 (i 0 : Fin 1600000) k)) (A1 i) (A2 i)

/-- A block whose rows are rows 5000·T … of the arrays stores the arrays' messages at those rows. -/
theorem edge_block (x0 x1 x2 : Vec Ideal S5000x64 .f32) (A0 A1 A2 : S1600000x64.Idx → EReal) (T : Nat)
    (y : S5000x64.Idx) (i : S1600000x64.Idx)
    (hi0 : (i 0).val = 5000 * T + (y 0).val) (hi1 : (i 1).val = (y 1).val)
    (h0 : ∀ (x : S5000x64.Idx) (k : S1600000x64.Idx), (k 0).val = 5000 * T + (x 0).val → (k 1).val = (x 1).val → x0 x = A0 k)
    (h1 : ∀ (x : S5000x64.Idx) (k : S1600000x64.Idx), (k 0).val = 5000 * T + (x 0).val → (k 1).val = (x 1).val → x1 x = A1 k)
    (h2 : ∀ (x : S5000x64.Idx) (k : S1600000x64.Idx), (k 0).val = 5000 * T + (x 0).val → (k 1).val = (x 1).val → x2 x = A2 k) :
    Gen.k0_pay1 (F := Ideal) x0 x1 x2 y = edges A0 A1 A2 i := by
  obtain ⟨p, q, rfl⟩ : ∃ (p : Fin 5000) (q : Fin 64), y = ix2 p q := ⟨y 0, y 1, eq_ix2 y⟩
  rw [Body.edge_apply]
  unfold edges
  have e0 : (fun k : Fin 64 => x0 (ix2 p k)) = fun k : Fin 64 => A0 (ix2 (i 0 : Fin 1600000) k) :=
    funext fun k => h0 _ _ hi0 rfl
  have e2 : (fun k : Fin 64 => x2 (ix2 p k)) = fun k : Fin 64 => A2 (ix2 (i 0 : Fin 1600000) k) :=
    funext fun k => h2 _ _ hi0 rfl
  rw [e0, e2, h1 (ix2 p q) i hi0 hi1, h2 (ix2 p q) i hi0 hi1]

/-- What point t writes back is block t of the messages of the arrays the region finds. -/
theorem flushed0 (c : Dev nD) (t : Fin cfg0.N) :
    (dat0 V c).flushed 3 t = ((cfg0.win 3).blk t).view.read (Elt Ideal)
      (edges (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeros2]
  simp only [View.ld_unit_zero (S := S5000x64) zeros2]
  have hi := (idx0 t).2.2.2
  funext j
  refine edge_block (iblk0 V c 0 t) (iblk0 V c 1 t) (iblk0 V c 2 t)
    (V c (Pipeline.arrRef spec0 0)) (V c (Pipeline.arrRef spec0 1)) (V c (Pipeline.arrRef spec0 2)) t.val j
    (((cfg0.win 3).blk t).view.emb j) ?_ ?_ (blk0_0 V c t) (blk0_1 V c t) (blk0_2 V c t)
  · show win0_3.index t 0 * 5000 + 1 * (j 0).val = 5000 * t.val + (j 0).val
    rw [hi.1]; omega
  · show win0_3.index t 1 * 64 + 1 * (j 1).val = (j 1).val
    rw [hi.2]; omega

/-- An index of the output array is in point t's block iff each coordinate is in the block's range. -/
theorem mem_blk0 (t : Fin cfg0.N) (i : S1600000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v23).slice (win0_3.rect t)).set ↔ _
  rw [View.set_slice_whole, Rect.mem_set_unit]
  exact Iff.rfl

/-- Row e of the output lies in the block of point e / 5000. -/
theorem cover0 (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  have hN : cfg0.N = 320 := N_0
  have ht : (i 0).val / 5000 < cfg0.N := by rw [hN]; omega
  refine ⟨⟨(i 0).val / 5000, ht⟩, flush0_3 _, ?_⟩
  rw [mem_blk0]
  have hi := (idx0 ⟨(i 0).val / 5000, ht⟩).2.2.2
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [hi.1]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val ∧ (i 1).val < win0_3.index ⟨(i 0).val / 5000, ht⟩ 1 * 64 + 64
    rw [hi.2]; omega

/-- After the edge region its output array holds every edge's messages. -/
theorem final0 (c : Dev nD) : (dat0 V c).arrAt 3 cfg0.N
    = edges (V c (Pipeline.arrRef spec0 0)) (V c (Pipeline.arrRef spec0 1)) (V c (Pipeline.arrRef spec0 2)) :=
  (dat0 V c).arrAt_eq_of_cover 3 _ (fun t _ => flushed0 V c t) cover0

end Cert.KernelIdeal.Arrays

end
-- ==== Proof.ArraysScale.lean ====
/-
  The scaling region's output array as one function of its two input arrays.

  The grid has 200 points; point t reads rows 5000·t … 5000·t + 4999 of the [1000000, 1] column of interaction values
  and of the [1000000, 64] gathered rows, and writes the same rows of the output: entry (r, c) of the output is the
  value of row r times the gathered entry at (r, c).
-/
import proofs.«104708_j67336497267219_1_alg».proof.Proof.Gen.KernelIdeal.Frame
import proofs.«104708_j67336497267219_1_alg».proof.Proof.BodyEdge
set_option maxRecDepth 16384

noncomputable section

namespace Cert.KernelIdeal.Arrays

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open Cert.KernelIdeal.Facts₀ Cert.KernelIdeal.Facts

variable (V : (c : Dev nD) → (b : Ref sig .tc) → Buf (Elt Ideal) ((c : Thread nD τ).loc b))

theorem zeros2' : (![0, 0] : Fin 2 → Nat) = fun _ => 0 := funext fun a => by fin_cases a <;> rfl

/-- Every window of the scaling region sits at block (t, 0) at point t. -/
theorem idx1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0) :=
  (by decide +kernel : ∀ t : Fin grid1.N, _)

/-- Window 0's block at point `t` is rows `5000·t … 5000·t + 4999` of its array. -/
theorem blk1_0 (c : Dev nD) (t : Fin cfg1.N) (x : S5000x1.Idx) (k : S1000000x1.Idx)
    (hk0 : (k 0).val = 5000 * t.val + (x 0).val) (hk1 : (k 1).val = (x 1).val) :
    (iblk1 V c 0 t : Vec Ideal S5000x1 .f32) x = (V c (Pipeline.arrRef spec1 0) : S1000000x1.Idx → Ideal .f32) k := by
  have hi := (idx1 t).1
  unfold iblk1
  rw [View.read_apply]
  refine congrArg (V c (Pipeline.arrRef spec1 0) : S1000000x1.Idx → Ideal .f32) ?_
  funext a
  apply Fin.ext
  match a with
  | ⟨0, _⟩ => show win1_0.index t 0 * 5000 + 1 * (x 0).val = (k 0).val; rw [hi.1, hk0]; omega
  | ⟨1, _⟩ => show win1_0.index t 1 * 1 + 1 * (x 1).val = (k 1).val; rw [hi.2, hk1]; omega

/-- Window 1's block at point `t` is rows `5000·t … 5000·t + 4999` of its array. -/
theorem blk1_1 (c : Dev nD) (t : Fin cfg1.N) (x : S5000x64.Idx) (k : S1000000x64.Idx)
    (hk0 : (k 0).val = 5000 * t.val + (x 0).val) (hk1 : (k 1).val = (x 1).val) :
    (iblk1 V c 1 t : Vec Ideal S5000x64 .f32) x = (V c (Pipeline.arrRef spec1 1) : S1000000x64.Idx → Ideal .f32) k := by
  have hi := (idx1 t).2.1
  unfold iblk1
  rw [View.read_apply]
  refine congrArg (V c (Pipeline.arrRef spec1 1) : S1000000x64.Idx → Ideal .f32) ?_
  funext a
  apply Fin.ext
  match a with
  | ⟨0, _⟩ => show win1_1.index t 0 * 5000 + 1 * (x 0).val = (k 0).val; rw [hi.1, hk0]; omega
  | ⟨1, _⟩ => show win1_1.index t 1 * 64 + 1 * (x 1).val = (k 1).val; rw [hi.2, hk1]; omega

/-- Every interaction's scaled row: the interaction's value times the gathered row. -/
def scaled (A0 : S1000000x1.Idx → EReal) (A1 : S1000000x64.Idx → EReal) : S1000000x64.Idx → EReal := fun i =>
  A0 (ix2 (i 0 : Fin 1000000) (0 : Fin 1)) * A1 i

/-- A block whose rows are rows 5000·T … of the arrays stores the arrays' scaled rows at those rows. -/
theorem scale_block (x0 : Vec Ideal S5000x1 .f32) (x1 : Vec Ideal S5000x64 .f32)
    (A0 : S1000000x1.Idx → EReal) (A1 : S1000000x64.Idx → EReal) (T : Nat) (y : S5000x64.Idx) (i : S1000000x64.Idx)
    (hi0 : (i 0).val = 5000 * T + (y 0).val) (hi1 : (i 1).val = (y 1).val)
    (h0 : ∀ (x : S5000x1.Idx) (k : S1000000x1.Idx), (k 0).val = 5000 * T + (x 0).val → (k 1).val = (x 1).val → x0 x = A0 k)
    (h1 : ∀ (x : S5000x64.Idx) (k : S1000000x64.Idx), (k 0).val = 5000 * T + (x 0).val → (k 1).val = (x 1).val → x1 x = A1 k) :
    Gen.k1_pay1 (F := Ideal) x0 x1 y = scaled A0 A1 i := by
  obtain ⟨p, q, rfl⟩ : ∃ (p : Fin 5000) (q : Fin 64), y = ix2 p q := ⟨y 0, y 1, eq_ix2 y⟩
  rw [Body.scale_apply]
  unfold scaled
  rw [h0 (ix2 p (0 : Fin 1)) (ix2 (i 0 : Fin 1000000) (0 : Fin 1)) hi0 rfl, h1 (ix2 p q) i hi0 hi1]

/-- What point t writes back is block t of the scaled rows of the arrays the region finds. -/
theorem flushed1 (c : Dev nD) (t : Fin cfg1.N) :
    (dat1 V c).flushed 2 t = ((cfg1.win 2).blk t).view.read (Elt Ideal)
      (scaled (V c (Pipeline.arrRef spec1 0)) (V c (Pipeline.arrRef spec1 1))) := by
  show (cfg1.win 2).cut (grid1.coords t) ((dat1 V c).after 2 t) = _
  rw [after1_2]
  unfold out1_2
  rw [View.canon_unit_zero zeros2']
  simp only [View.ld_unit_zero (S := S5000x64) zeros2', View.ld_unit_zero (S := S5000x1) zeros2']
  have hi := (idx1 t).2.2
  funext j
  refine scale_block (iblk1 V c 0 t) (iblk1 V c 1 t)
    (V c (Pipeline.arrRef spec1 0)) (V c (Pipeline.arrRef spec1 1)) t.val j
    (((cfg1.win 2).blk t).view.emb j) ?_ ?_ (blk1_0 V c t) (blk1_1 V c t)
  · show win1_2.index t 0 * 5000 + 1 * (j 0).val = 5000 * t.val + (j 0).val
    rw [hi.1]; omega
  · show win1_2.index t 1 * 64 + 1 * (j 1).val = (j 1).val
    rw [hi.2]; omega

/-- An index of the output array is in point t's block iff each coordinate is in the block's range. -/
theorem mem_blk1 (t : Fin cfg1.N) (i : S1000000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v44).slice (win1_2.rect t)).set ↔ _
  rw [View.set_slice_whole, Rect.mem_set_unit]
  exact Iff.rfl

/-- Row r of the output lies in the block of point r / 5000. -/
theorem cover1 (i : S1000000x64.Idx) :
    ∃ t : Fin cfg1.N, (cfg1.win 2).flush t = true ∧ i ∈ ((cfg1.win 2).blk t).view.set := by
  have hi0 : (i 0).val < 1000000 := (i 0).isLt
  have hi1 : (i 1).val < 64 := (i 1).isLt
  have hN : cfg1.N = 200 := N_1
  have ht : (i 0).val / 5000 < cfg1.N := by rw [hN]; omega
  refine ⟨⟨(i 0).val / 5000, ht⟩, flush1_2 _, ?_⟩
  rw [mem_blk1]
  have hi := (idx1 ⟨(i 0).val / 5000, ht⟩).2.2
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [hi.1]; show (i 0).val / 5000 * 5000 ≤ (i 0).val ∧ (i 0).val < (i 0).val / 5000 * 5000 + 5000; omega
  | ⟨1, _⟩ =>
    show win1_2.index ⟨(i 0).val / 5000, ht⟩ 1 * 64 ≤ (i 1).val ∧ (i 1).val < win1_2.index ⟨(i 0).val / 5000, ht⟩ 1 * 64 + 64
    rw [hi.2]; omega

/-- After the scaling region its output array holds every interaction's scaled row. -/
theorem final1 (c : Dev nD) : (dat1 V c).arrAt 2 cfg1.N
    = scaled (V c (Pipeline.arrRef spec1 0)) (V c (Pipeline.arrRef spec1 1)) :=
  (dat1 V c).arrAt_eq_of_cover 2 _ (fun t _ => flushed1 V c t) cover1

end Cert.KernelIdeal.Arrays

end
-- ==== Proof.BodyGate.lean ====
/-
  The body of the gating kernel, read at one index of a block.

  For user p of the block and channel q: the logits of p over the four latent factors are the products of p's
  embedding row with the factors' rows; their softmax weights multiply the factors' entries in channel q; the sum is
  the gate, and the stored entry is the aggregate times the gate plus the aggregate.
-/
import proofs.«104708_j67336497267219_1_alg».proof.Proof.Gen.KernelIdeal.Skeleton
import proofs.«104708_j67336497267219_1_alg».proof.Proof.LibRowOps
import proofs.«104708_j67336497267219_1_alg».proof.Proof.Spec

noncomputable section

namespace Cert.KernelIdeal.Body

open Idealize.ShloMosaic Idealize.ShloMosaic.ValueIdx Cert.RowOps Cert.KernelIdeal Cert.Spec
open Cert.KernelIdeal.Facts₀ Cert.KernelIdeal.Facts

theorem plain_logits : IsPlain dot_S5000x64_S64x4_S5000x4_1_0_0_1_n_n := ⟨rfl, rfl, rfl, rfl, rfl, rfl⟩
theorem plain_mix : IsPlain dot_S5000x4_S4x64_S5000x64_1_0_0_1_n_n := ⟨rfl, rfl, rfl, rfl, rfl, rfl⟩

/-- The logits of the block: user p against factor f. -/
def logits (x0 : FVec Ideal S5000x64 .f32) (x1 : FVec Ideal S4x64 .f32) : FVec Ideal S5000x4 .f32 :=
  FloatOps.matmul dot_S5000x64_S64x4_S5000x4_1_0_0_1_n_n none (truncf .bf16 x0 bitsLt_bf16_f32 : FVec Ideal S5000x64 .bf16)
    (transpose S64x4 [1, 0] (truncf .bf16 x1 bitsLt_bf16_f32 : FVec Ideal S4x64 .bf16) transposes_S4x64_p1_0_S64x4)
    (constant S5000x4 .f32 0x00000000#32)

theorem logits_apply (x0 : FVec Ideal S5000x64 .f32) (x1 : FVec Ideal S4x64 .f32) (p : Fin 5000) (f : Fin 4) :
    logits x0 x1 (ix2 p f) = ∑ k : Fin 64, x0 (ix2 p k) * x1 (ix2 f k) :=
  (matmul_zero_apply plain_logits none _ _ p f).trans (Finset.sum_congr rfl fun k _ =>
    congrArg (x0 (ix2 p k) * ·) (swap_apply (truncf .bf16 x1 bitsLt_bf16_f32 : FVec Ideal S4x64 .bf16) transposes_S4x64_p1_0_S64x4 k f))

/-- The shift of row p: the larger of −∞ and the row's maximum. -/
theorem shift_apply (S : FVec Ideal S5000x4 .f32) (p : Fin 5000) :
    (maximumf (broadcast S5000 (Scalar.ofBits (F := Ideal) .f32 0xFF800000#32))
        (multiReduction (F := Ideal) .maximumf [1] S5000 S 0xFF800000#32 reduces_S5000x4_S5000 (.inl rfl) rfl)) (ix1 p)
      = shift (fun f : Fin 4 => S (ix2 p f)) :=
  congrArg (max (Ideal.ofBits .f32 0xFF800000#32)) (rowMax_apply S 0xFF800000#32 reduces_S5000x4_S5000 (.inl rfl) rfl p)

/-- The shifted and exponentiated logits at (p, f). -/
theorem expo_apply (S : FVec Ideal S5000x4 .f32) (p : Fin 5000) (f : Fin 4) :
    (exp (F := Ideal) (subf S (broadcastTo S5000x4 (shapeCast S5000x1 (maximumf (broadcast S5000 (Scalar.ofBits (F := Ideal) .f32 0xFF800000#32))
        (multiReduction (F := Ideal) .maximumf [1] S5000 S 0xFF800000#32 reduces_S5000x4_S5000 (.inl rfl) rfl)) shapeCasts_S5000_S5000x1)
        broadcasts_S5000x1_S5000x4))) (ix2 p f)
      = Ideal.exp (S (ix2 p f) - shift (fun g : Fin 4 => S (ix2 p g))) :=
  congrArg (fun z => Ideal.exp (S (ix2 p f) - z))
    ((spread_apply _ broadcasts_S5000x1_S5000x4 p f).trans ((column_apply _ shapeCasts_S5000_S5000x1 p 0).trans (shift_apply S p)))

/-- The softmax weights of the block. -/
def weights (S : FVec Ideal S5000x4 .f32) : FVec Ideal S5000x4 .f32 :=
  divf (exp (F := Ideal) (subf S (broadcastTo S5000x4 (shapeCast S5000x1 (maximumf (broadcast S5000 (Scalar.ofBits (F := Ideal) .f32 0xFF800000#32))
        (multiReduction (F := Ideal) .maximumf [1] S5000 S 0xFF800000#32 reduces_S5000x4_S5000 (.inl rfl) rfl)) shapeCasts_S5000_S5000x1)
        broadcasts_S5000x1_S5000x4)))
    (broadcastTo S5000x4 (shapeCast S5000x1 (multiReduction (F := Ideal) .add [1] S5000
      (exp (F := Ideal) (subf S (broadcastTo S5000x4 (shapeCast S5000x1 (maximumf (broadcast S5000 (Scalar.ofBits (F := Ideal) .f32 0xFF800000#32))
        (multiReduction (F := Ideal) .maximumf [1] S5000 S 0xFF800000#32 reduces_S5000x4_S5000 (.inl rfl) rfl)) shapeCasts_S5000_S5000x1)
        broadcasts_S5000x1_S5000x4))) 0x00000000#32 reduces_S5000x4_S5000 (.inl rfl) rfl) shapeCasts_S5000_S5000x1)
      broadcasts_S5000x1_S5000x4)

theorem weights_apply (S : FVec Ideal S5000x4 .f32) (p : Fin 5000) (f : Fin 4) :
    weights S (ix2 p f) = weight (fun g : Fin 4 => S (ix2 p g)) f := by
  have hsum : broadcastTo S5000x4 (shapeCast S5000x1 (multiReduction (F := Ideal) .add [1] S5000
      (exp (F := Ideal) (subf S (broadcastTo S5000x4 (shapeCast S5000x1 (maximumf (broadcast S5000 (Scalar.ofBits (F := Ideal) .f32 0xFF800000#32))
        (multiReduction (F := Ideal) .maximumf [1] S5000 S 0xFF800000#32 reduces_S5000x4_S5000 (.inl rfl) rfl)) shapeCasts_S5000_S5000x1)
        broadcasts_S5000x1_S5000x4))) 0x00000000#32 reduces_S5000x4_S5000 (.inl rfl) rfl) shapeCasts_S5000_S5000x1)
      broadcasts_S5000x1_S5000x4 (ix2 p f) = ∑ g : Fin 4, Ideal.exp (S (ix2 p g) - shift (fun g : Fin 4 => S (ix2 p g))) :=
    (spread_apply _ broadcasts_S5000x1_S5000x4 p f).trans ((column_apply _ shapeCasts_S5000_S5000x1 p 0).trans
      ((rowSum_apply _ 0x00000000#32 reduces_S5000x4_S5000 (.inl rfl) rfl p).trans
        (Finset.sum_congr rfl fun g _ => expo_apply S p g)))
  unfold weights weight
  show Ideal.div ((exp (F := Ideal) (subf S (broadcastTo S5000x4 (shapeCast S5000x1 (maximumf (broadcast S5000 (Scalar.ofBits (F := Ideal) .f32 0xFF800000#32))
        (multiReduction (F := Ideal) .maximumf [1] S5000 S 0xFF800000#32 reduces_S5000x4_S5000 (.inl rfl) rfl)) shapeCasts_S5000_S5000x1)
        broadcasts_S5000x1_S5000x4))) (ix2 p f)) _ = _
  rw [hsum, expo_apply]

/-- The gating kernel's stored block at (p, q). -/
theorem gate_apply (x0 : Vec Ideal S5000x64 .f32) (x1 x2 : Vec Ideal S4x64 .f32) (x3 : Vec Ideal S5000x64 .f32)
    (p : Fin 5000) (q : Fin 64) :
    Gen.k2_pay1 (F := Ideal) x0 x1 x2 x3 (ix2 p q)
      = gated (fun f : Fin 4 => ∑ k : Fin 64, x0 (ix2 p k) * x1 (ix2 f k)) (fun f => x2 (ix2 f q)) (x3 (ix2 p q)) := by
  unfold Gen.k2_pay1 gated
  simp only [shapeCast_self]
  have hmix : FloatOps.matmul dot_S5000x4_S4x64_S5000x64_1_0_0_1_n_n none
        (truncf .bf16 (weights (logits x0 x1)) bitsLt_bf16_f32 : FVec Ideal S5000x4 .bf16)
        (truncf .bf16 x2 bitsLt_bf16_f32 : FVec Ideal S4x64 .bf16) (constant S5000x64 .f32 0x00000000#32) (ix2 p q)
      = ∑ f : Fin 4, weight (fun f : Fin 4 => ∑ k : Fin 64, x0 (ix2 p k) * x1 (ix2 f k)) f * x2 (ix2 f q) :=
    (matmul_zero_apply plain_mix none _ _ p q).trans (Finset.sum_congr rfl fun f _ =>
      congrArg (· * x2 (ix2 f q)) ((weights_apply (logits x0 x1) p f).trans
        (congrArg (fun z => weight z f) (funext fun g => logits_apply x0 x1 p g))))
  exact congrArg (fun s => x3 (ix2 p q) * s + x3 (ix2 p q)) hmix

end Cert.KernelIdeal.Body

end
-- ==== Proof.ArraysGate.lean ====
/-
  The gating region's output array as one function of its four input arrays.

  The grid has 10 points; point t reads rows 5000·t … 5000·t + 4999 of the users' embeddings and of the users'
  aggregates, and at every point the whole [4, 64] latent factors and the whole [4, 64] disentangled weights; it
  writes the same rows of the output.  A user's gated aggregate depends only on that user's rows and on the two
  small arrays, so the blocks are restrictions of one function of the whole arrays, and they tile the output.
-/
import proofs.«104708_j67336497267219_1_alg».proof.Proof.Gen.KernelIdeal.Frame
import proofs.«104708_j67336497267219_1_alg».proof.Proof.BodyGate
set_option maxRecDepth 16384

noncomputable section

namespace Cert.KernelIdeal.Arrays

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open Cert.KernelIdeal.Facts₀ Cert.KernelIdeal.Facts

variable (V : (c : Dev nD) → (b : Ref sig .tc) → Buf (Elt Ideal) ((c : Thread nD τ).loc b))

theorem zeros2'' : (![0, 0] : Fin 2 → Nat) = fun _ => 0 := funext fun a => by fin_cases a <;> rfl

/-- The row-blocked windows of the gating region sit at block (t, 0) at point t, the two small ones at (0, 0). -/
theorem idx2 : ∀ t : Fin cfg2.N, (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0) :=
  (by decide +kernel : ∀ t : Fin grid2.N, _)

/-- Window 0's block at point `t` is rows `5000·t … 5000·t + 4999` of its array. -/
theorem blk2_0 (c : Dev nD) (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c (Pipeline.arrRef spec2 0) : S50000x64.Idx → Ideal .f32) k := by
  have hi := (idx2 t).1
  unfold iblk2
  rw [View.read_apply]
  refine congrArg (V c (Pipeline.arrRef spec2 0) : S50000x64.Idx → Ideal .f32) ?_
  funext a
  apply Fin.ext
  match a with
  | ⟨0, _⟩ => show win2_0.index t 0 * 5000 + 1 * (x 0).val = (k 0).val; rw [hi.1, hk0]; omega
  | ⟨1, _⟩ => show win2_0.index t 1 * 64 + 1 * (x 1).val = (k 1).val; rw [hi.2, hk1]; omega

/-- Window 1's block at every point is its whole array. -/
theorem blk2_1 (c : Dev nD) (t : Fin cfg2.N) (x : S4x64.Idx) :
    (iblk2 V c 1 t : Vec Ideal S4x64 .f32) x = (V c (Pipeline.arrRef spec2 1) : S4x64.Idx → Ideal .f32) x := by
  have hi := (idx2 t).2.1
  unfold iblk2
  rw [View.read_apply]
  refine congrArg (V c (Pipeline.arrRef spec2 1) : S4x64.Idx → Ideal .f32) ?_
  funext a
  apply Fin.ext
  match a with
  | ⟨0, _⟩ => show win2_1.index t 0 * 4 + 1 * (x 0).val = (x 0).val; rw [hi.1]; omega
  | ⟨1, _⟩ => show win2_1.index t 1 * 64 + 1 * (x 1).val = (x 1).val; rw [hi.2]; omega

/-- Window 2's block at every point is its whole array. -/
theorem blk2_2 (c : Dev nD) (t : Fin cfg2.N) (x : S4x64.Idx) :
    (iblk2 V c 2 t : Vec Ideal S4x64 .f32) x = (V c (Pipeline.arrRef spec2 2) : S4x64.Idx → Ideal .f32) x := by
  have hi := (idx2 t).2.2.1
  unfold iblk2
  rw [View.read_apply]
  refine congrArg (V c (Pipeline.arrRef spec2 2) : S4x64.Idx → Ideal .f32) ?_
  funext a
  apply Fin.ext
  match a with
  | ⟨0, _⟩ => show win2_2.index t 0 * 4 + 1 * (x 0).val = (x 0).val; rw [hi.1]; omega
  | ⟨1, _⟩ => show win2_2.index t 1 * 64 + 1 * (x 1).val = (x 1).val; rw [hi.2]; omega

/-- Window 3's block at point `t` is rows `5000·t … 5000·t + 4999` of its array. -/
theorem blk2_3 (c : Dev nD) (t : Fin cfg2.N) (x : S5000x64.Idx) (k : S50000x64.Idx)
    (hk0 : (k 0).val = 5000 * t.val + (x 0).val) (hk1 : (k 1).val = (x 1).val) :
    (iblk2 V c 3 t : Vec Ideal S5000x64 .f32) x = (V c (Pipeline.arrRef spec2 3) : S50000x64.Idx → Ideal .f32) k := by
  have hi := (idx2 t).2.2.2.1
  unfold iblk2
  rw [View.read_apply]
  refine congrArg (V c (Pipeline.arrRef spec2 3) : S50000x64.Idx → Ideal .f32) ?_
  funext a
  apply Fin.ext
  match a with
  | ⟨0, _⟩ => show win2_3.index t 0 * 5000 + 1 * (x 0).val = (k 0).val; rw [hi.1, hk0]; omega
  | ⟨1, _⟩ => show win2_3.index t 1 * 64 + 1 * (x 1).val = (k 1).val; rw [hi.2, hk1]; omega

/-- Every user's gated aggregate, from the users' embeddings, the latent factors, the disentangled weights and the
    users' aggregates. -/
def gatedAll (A0 : S50000x64.Idx → EReal) (A1 A2 : S4x64.Idx → EReal) (A3 : S50000x64.Idx → EReal) :
    S50000x64.Idx → EReal := fun i =>
  gated (fun f : Fin 4 => ∑ k : Fin 64, A0 (ix2 (i 0 : Fin 50000) k) * A1 (ix2 f k))
    (fun f : Fin 4 => A2 (ix2 f (i 1 : Fin 64))) (A3 i)

/-- A block whose rows are rows 5000·T … of the row-blocked arrays stores the arrays' gated aggregates at those rows. -/
theorem gate_block (x0 : Vec Ideal S5000x64 .f32) (x1 x2 : Vec Ideal S4x64 .f32) (x3 : Vec Ideal S5000x64 .f32)
    (A0 : S50000x64.Idx → EReal) (A1 A2 : S4x64.Idx → EReal) (A3 : S50000x64.Idx → EReal) (T : Nat)
    (y : S5000x64.Idx) (i : S50000x64.Idx)
    (hi0 : (i 0).val = 5000 * T + (y 0).val) (hi1 : (i 1).val = (y 1).val)
    (h0 : ∀ (x : S5000x64.Idx) (k : S50000x64.Idx), (k 0).val = 5000 * T + (x 0).val → (k 1).val = (x 1).val → x0 x = A0 k)
    (h1 : ∀ x : S4x64.Idx, x1 x = A1 x) (h2 : ∀ x : S4x64.Idx, x2 x = A2 x)
    (h3 : ∀ (x : S5000x64.Idx) (k : S50000x64.Idx), (k 0).val = 5000 * T + (x 0).val → (k 1).val = (x 1).val → x3 x = A3 k) :
    Gen.k2_pay1 (F := Ideal) x0 x1 x2 x3 y = gatedAll A0 A1 A2 A3 i := by
  obtain ⟨p, q, rfl⟩ : ∃ (p : Fin 5000) (q : Fin 64), y = ix2 p q := ⟨y 0, y 1, eq_ix2 y⟩
  rw [Body.gate_apply]
  unfold gatedAll
  have eq : (i 1 : Fin 64) = q := Fin.ext hi1
  have e0 : (fun f : Fin 4 => ∑ k : Fin 64, x0 (ix2 p k) * x1 (ix2 f k))
      = fun f : Fin 4 => ∑ k : Fin 64, A0 (ix2 (i 0 : Fin 50000) k) * A1 (ix2 f k) :=
    funext fun f => Finset.sum_congr rfl fun k _ => by rw [h0 (ix2 p k) (ix2 (i 0 : Fin 50000) k) hi0 rfl, h1]
  have e2 : (fun f : Fin 4 => x2 (ix2 f q)) = fun f : Fin 4 => A2 (ix2 f (i 1 : Fin 64)) :=
    funext fun f => by rw [h2, eq]
  rw [e0, e2, h3 (ix2 p q) i hi0 hi1]

/-- What point t writes back is block t of the gated aggregates of the arrays the region finds. -/
theorem flushed2 (c : Dev nD) (t : Fin cfg2.N) :
    (dat2 V c).flushed 4 t = ((cfg2.win 4).blk t).view.read (Elt Ideal)
      (gatedAll (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero zeros2'']
  simp only [View.ld_unit_zero (S := S5000x64) zeros2'', View.ld_unit_zero (S := S4x64) zeros2'']
  have hi := (idx2 t).2.2.2.2
  funext j
  refine gate_block (iblk2 V c 0 t) (iblk2 V c 1 t) (iblk2 V c 2 t) (iblk2 V c 3 t)
    (V c (Pipeline.arrRef spec2 0)) (V c (Pipeline.arrRef spec2 1)) (V c (Pipeline.arrRef spec2 2))
    (V c (Pipeline.arrRef spec2 3)) t.val j
    (((cfg2.win 4).blk t).view.emb j) ?_ ?_ (blk2_0 V c t) (blk2_1 V c t) (blk2_2 V c t) (blk2_3 V c t)
  · show win2_4.index t 0 * 5000 + 1 * (j 0).val = 5000 * t.val + (j 0).val
    rw [hi.1]; omega
  · show win2_4.index t 1 * 64 + 1 * (j 1).val = (j 1).val
    rw [hi.2]; omega

/-- An index of the output array is in point t's block iff each coordinate is in the block's range. -/
theorem mem_blk2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v60).slice (win2_4.rect t)).set ↔ _
  rw [View.set_slice_whole, Rect.mem_set_unit]
  exact Iff.rfl

/-- Row r of the output lies in the block of point r / 5000. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  have ht : (i 0).val / 5000 < cfg2.N := by rw [hN]; omega
  refine ⟨⟨(i 0).val / 5000, ht⟩, flush2_4 _, ?_⟩
  rw [mem_blk2]
  have hi := (idx2 ⟨(i 0).val / 5000, ht⟩).2.2.2.2
  intro a
  match a with
  | ⟨0, _⟩ =>
    show win2_4.index ⟨(i 0).val / 5000, ht⟩ 0 * 5000 ≤ (i 0).val ∧ (i 0).val < win2_4.index ⟨(i 0).val / 5000, ht⟩ 0 * 5000 + 5000
    rw [hi.1]; show (i 0).val / 5000 * 5000 ≤ (i 0).val ∧ (i 0).val < (i 0).val / 5000 * 5000 + 5000; omega
  | ⟨1, _⟩ =>
    show win2_4.index ⟨(i 0).val / 5000, ht⟩ 1 * 64 ≤ (i 1).val ∧ (i 1).val < win2_4.index ⟨(i 0).val / 5000, ht⟩ 1 * 64 + 64
    rw [hi.2]; omega

/-- After the gating region its output array holds every user's gated aggregate. -/
theorem final2 (c : Dev nD) : (dat2 V c).arrAt 4 cfg2.N
    = gatedAll (V c (Pipeline.arrRef spec2 0)) (V c (Pipeline.arrRef spec2 1)) (V c (Pipeline.arrRef spec2 2))
        (V c (Pipeline.arrRef spec2 3)) :=
  (dat2 V c).arrAt_eq_of_cover 4 _ (fun t _ => flushed2 V c t) cover2

end Cert.KernelIdeal.Arrays

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.KernelLine.lean ====
/-
  The idealized kernel program as one line of operations.

  Each of the three regions leaves its input arrays as it found them and its one output array at a function of them
  (every edge's messages; every interaction's scaled row; every user's gated aggregate), and touches no other buffer:
  it rewrites the buffer contents exactly as one host operation with that function.  So the contents at the last
  segment boundary are what the single line — first host stretch, edge operation, second stretch, scaling operation,
  third stretch, gating operation — leaves of the launch contents.
-/
import proofs.«104708_j67336497267219_1_alg».proof.Proof.Gen.KernelIdeal.Frame
import proofs.«104708_j67336497267219_1_alg».proof.Proof.ArraysEdge
import proofs.«104708_j67336497267219_1_alg».proof.Proof.ArraysScale
import proofs.«104708_j67336497267219_1_alg».proof.Proof.ArraysGate
import proofs.«104708_j67336497267219_1_alg».proof.Proof.LibRegionOp
set_option maxRecDepth 16384

noncomputable section

namespace Cert.KernelIdeal.Line

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
open Cert.KernelIdeal.Facts₀ Cert.KernelIdeal.Facts
open Idealize.ShloMosaic.StableHlo

variable (m : (ℓ : Loc nD τ sig) → Buf (Elt Ideal) ℓ) (ρ : Dev nD → PrngReg)

/-- The edge region as an operation: the messages of the three gathered arrays. -/
def opEdge : HloOp τ sig (Elt Ideal) :=
  StableHlo.ternary main_v6 main_v13 main_v22 main_v23
    (Arrays.edges : (⟨S1600000x64, .f32⟩ : BufTy).Contents (Elt Ideal) → (⟨S1600000x64, .f32⟩ : BufTy).Contents (Elt Ideal)
      → (⟨S1600000x64, .f32⟩ : BufTy).Contents (Elt Ideal) → (⟨S1600000x64, .f32⟩ : BufTy).Contents (Elt Ideal))

/-- The scaling region as an operation. -/
def opScale : HloOp τ sig (Elt Ideal) :=
  StableHlo.binary main_v43 main_v42 main_v44
    (Arrays.scaled : (⟨S1000000x1, .f32⟩ : BufTy).Contents (Elt Ideal) → (⟨S1000000x64, .f32⟩ : BufTy).Contents (Elt Ideal)
      → (⟨S1000000x64, .f32⟩ : BufTy).Contents (Elt Ideal))

/-- The gating region as an operation. -/
def opGate : HloOp τ sig (Elt Ideal) :=
  StableHlo.quaternary main_arg1 main_arg2 main_v59 main_v47 main_v60
    (Arrays.gatedAll : (⟨S50000x64, .f32⟩ : BufTy).Contents (Elt Ideal) → (⟨S4x64, .f32⟩ : BufTy).Contents (Elt Ideal)
      → (⟨S4x64, .f32⟩ : BufTy).Contents (Elt Ideal) → (⟨S50000x64, .f32⟩ : BufTy).Contents (Elt Ideal)
      → (⟨S50000x64, .f32⟩ : BufTy).Contents (Elt Ideal))

/-- The edge region rewrites the contents as its operation does. -/
theorem edge_step (c : Dev nD) : W2 m ρ c = opEdge.result (W1 m ρ c) := by
  unfold W2
  refine RegionOp.withArrays_eq_result spec0 launch0.win.arr_inj c (W1 m ρ c) _ opEdge 3 rfl ?_ ?_
  · exact (Arrays.final0 (V1 m ρ) c).trans (StableHlo.ternary_result main_v6 main_v13 main_v22 main_v23 _ _ _ _ _ (W1 m ρ c)).symm
  · intro w hw
    match w, hw with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, h => exact absurd rfl h

/-- The scaling region rewrites the contents as its operation does. -/
theorem scale_step (c : Dev nD) : W4 m ρ c = opScale.result (W3 m ρ c) := by
  unfold W4
  refine RegionOp.withArrays_eq_result spec1 launch1.win.arr_inj c (W3 m ρ c) _ opScale 2 rfl ?_ ?_
  · exact (Arrays.final1 (V3 m ρ) c).trans (StableHlo.binary_result main_v43 main_v42 main_v44 _ _ _ _ (W3 m ρ c)).symm
  · intro w hw
    match w, hw with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, h => exact absurd rfl h

/-- The gating region rewrites the contents as its operation does. -/
theorem gate_step (c : Dev nD) : W6 m ρ c = opGate.result (W5 m ρ c) := by
  unfold W6
  refine RegionOp.withArrays_eq_result spec2 launch2.win.arr_inj c (W5 m ρ c) _ opGate 4 rfl ?_ ?_
  · exact (Arrays.final2 (V5 m ρ) c).trans (StableHlo.quaternary_result main_arg1 main_arg2 main_v59 main_v47 main_v60 _ _ _ _ _ _ (W5 m ρ c)).symm
  · intro w hw
    match w, hw with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, _ => exact ((dat2 (V5 m ρ) c).arrAt_in 3 rfl _).trans (A_eq2 (V5 m ρ) c 3)
    | ⟨4, _⟩, h => exact absurd rfl h

/-- The contents at the last boundary: the launch contents run through the three stretches and the three operations. -/
theorem last_boundary (c : Dev nD) :
    W6 m ρ c = opGate.result (after hostOps2 (opScale.result (after hostOps1 (opEdge.result (after hostOps0 (W0 m ρ c)))))) := by
  rw [gate_step m ρ c]
  show opGate.result (after hostOps2 (W4 m ρ c)) = _
  rw [scale_step m ρ c]
  show opGate.result (after hostOps2 (opScale.result (after hostOps1 (W2 m ρ c)))) = _
  rw [edge_step m ρ c]

end Cert.KernelIdeal.Line

end
-- ==== Proof.KernelValue.lean ====
/-
  The two results of the idealized kernel program as functions of its arguments.

  The entity result: gather the head rows, tail rows and relation rows, take every edge's messages, add the messages
  of each head entity together, and divide by the larger of one and the number of edges of that head.  The user
  result: gather the entities of the interactions, scale each by its value, add the rows of each user together, and
  gate the sums by the users' softmax weights over the latent factors applied to the disentangled weights.
-/
import proofs.«104708_j67336497267219_1_alg».proof.Proof.Gen.KernelIdeal.Frame
import proofs.«104708_j67336497267219_1_alg».proof.Proof.KernelLine
set_option maxRecDepth 16384

noncomputable section

namespace Cert.KernelIdeal.Line

open Idealize.ShloMosaic Idealize.ShloMosaic.TcCoe Idealize.ShloMosaic.ValueIdx
open Idealize.SL.Sem
open Idealize.ShloMosaic.Pipeline (Dat Cfg Window)
open Cert.KernelIdeal Cert.Spec
open Cert.KernelIdeal.Gen (W0 W6 hostOps0 hostOps1 hostOps2)
open Cert.KernelIdeal.Facts₀ Cert.KernelIdeal.Facts
open Idealize.ShloMosaic.StableHlo

/-- The entity result from the entity embeddings, the relation weights, and the head, tail and relation indices. -/
def entityOut (a0 : FVec Ideal S100000x64 .f32) (a3 : FVec Ideal S16x64 .f32) (a6 a7 a8 : IVec S1600000 32) :
    FVec Ideal S100000x64 .f32 :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 a6)
      (Arrays.edges
        (Host.gather gather_S100000x64_S1600000x1_S1600000x64_1_0_n_n_0_1_164 a0 (broadcastInDim S1600000x1 ![0] bcast_S1600000_S1600000x1_0 (select (cmpi .slt a6 (broadcastInDim S1600000 ![] bcast_S_S1600000 (constantI S_ 32 0#32))) (addi a6 (broadcastInDim S1600000 ![] bcast_S_S1600000 (constantI S_ 32 100000#32))) a6)))
        (Host.gather gather_S100000x64_S1600000x1_S1600000x64_1_0_n_n_0_1_164 a0 (broadcastInDim S1600000x1 ![0] bcast_S1600000_S1600000x1_0 (select (cmpi .slt a7 (broadcastInDim S1600000 ![] bcast_S_S1600000 (constantI S_ 32 0#32))) (addi a7 (broadcastInDim S1600000 ![] bcast_S_S1600000 (constantI S_ 32 100000#32))) a7)))
        (Host.gather gather_S16x64_S1600000x1_S1600000x64_1_0_n_n_0_1_164 a3 (broadcastInDim S1600000x1 ![0] bcast_S1600000_S1600000x1_0 (select (cmpi .slt (subi a8 (broadcastInDim S1600000 ![] bcast_S_S1600000 (constantI S_ 32 1#32))) (broadcastInDim S1600000 ![] bcast_S_S1600000 (constantI S_ 32 0#32))) (addi (subi a8 (broadcastInDim S1600000 ![] bcast_S_S1600000 (constantI S_ 32 1#32))) (broadcastInDim S1600000 ![] bcast_S_S1600000 (constantI S_ 32 16#32))) (subi a8 (broadcastInDim S1600000 ![] bcast_S_S1600000 (constantI S_ 32 1#32))))))))
    (broadcastInDim S100000x64 ![0, 1] bcast_S100000x1_S100000x64_0_1 (broadcastInDim S100000x1 ![0] bcast_S100000_S100000x1_0
      (maximumf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 a6)
          (broadcastInDim S1600000 ![] bcast_S_S1600000 (constant (F := Ideal) S_ .f32 0x3F800000#32)))
        (broadcastInDim S100000 ![] bcast_S_S100000 (constant (F := Ideal) S_ .f32 0x3F800000#32)))))

/-- The user result from the entity and user embeddings, the latent factors, the relation weights, the
    disentangling logits, the interaction values, and the interactions' user and entity indices. -/
def userOut (a0 : FVec Ideal S100000x64 .f32) (a1 : FVec Ideal S50000x64 .f32) (a2 : FVec Ideal S4x64 .f32)
    (a3 : FVec Ideal S16x64 .f32) (a4 : FVec Ideal S4x16 .f32) (a5 : FVec Ideal S1000000 .f32)
    (a9 a10 : IVec S1000000 32) : FVec Ideal S50000x64 .f32 :=
  Arrays.gatedAll a1 a2
    (Host.dotGeneral (F := Ideal) dot_S4x16_S16x64_S4x64_1_0_0_1_n_n none (Host.divf (F := Ideal) (Host.exp (F := Ideal) (subf a4 (broadcastInDim S4x16 ![0, 1] bcast_S4x1_S4x16_0_1 (broadcastInDim S4x1 ![0] bcast_S4_S4x1_0 (maximumf (broadcastInDim S4 ![] bcast_S_S4 (constant (F := Ideal) S_ .f32 0xFF800000#32)) (Host.reduce FloatOps.maximumf a4 (constant (F := Ideal) S_ .f32 0xFF800000#32) reducesTo_S4x16_S4_d1 h_S_)))))) (broadcastInDim S4x16 ![0, 1] bcast_S4x1_S4x16_0_1 (broadcastInDim S4x1 ![0] bcast_S4_S4x1_0 (Host.reduceAdd (F := Ideal) (Host.exp (F := Ideal) (subf a4 (broadcastInDim S4x16 ![0, 1] bcast_S4x1_S4x16_0_1 (broadcastInDim S4x1 ![0] bcast_S4_S4x1_0 (maximumf (broadcastInDim S4 ![] bcast_S_S4 (constant (F := Ideal) S_ .f32 0xFF800000#32)) (Host.reduce FloatOps.maximumf a4 (constant (F := Ideal) S_ .f32 0xFF800000#32) reducesTo_S4x16_S4_d1 h_S_)))))) (constant (F := Ideal) S_ .f32 0x00000000#32) reducesTo_S4x16_S4_d1 h_S_)))) a3)
    (Host.scatterAdd (F := Ideal) scatter_S50000x64_S1000000x1_S1000000x64_1_0_0_1
      (broadcastInDim S50000x64 ![] bcast_S_S50000x64 (constant (F := Ideal) S_ .f32 0x00000000#32))
      (broadcastInDim S1000000x1 ![0] bcast_S1000000_S1000000x1_0 a9)
      (Arrays.scaled (shapeCast S1000000x1 a5 shapeCasts_S1000000_S1000000x1)
        (Host.gather gather_S100000x64_S1000000x1_S1000000x64_1_0_n_n_0_1_164 a0 (broadcastInDim S1000000x1 ![0] bcast_S1000000_S1000000x1_0 (select (cmpi .slt a10 (broadcastInDim S1000000 ![] bcast_S_S1000000 (constantI S_ 32 0#32))) (addi a10 (broadcastInDim S1000000 ![] bcast_S_S1000000 (constantI S_ 32 100000#32))) a10)))))

variable (m : (ℓ : Loc nD τ sig) → Buf (Elt Ideal) ℓ) (ρ : Dev nD → PrngReg)

set_option maxHeartbeats 4000000 in
/-- The entity result buffer at the last boundary. -/
theorem entity_val (c : Dev nD) : W6 m ρ c (Proc.devRef .tc main_v35)
    = entityOut (m ((c.tc : Thread nD τ).loc main_arg0)) (m ((c.tc : Thread nD τ).loc main_arg3))
        (m ((c.tc : Thread nD τ).loc main_arg6)) (m ((c.tc : Thread nD τ).loc main_arg7)) (m ((c.tc : Thread nD τ).loc main_arg8)) := by
  rw [last_boundary m ρ c]
  simp only [opGate, opScale, opEdge, hostOps0, hostOps1, hostOps2]
  after_results_simp
  rfl

set_option maxHeartbeats 4000000 in
/-- The user result buffer at the last boundary. -/
theorem user_val (c : Dev nD) : W6 m ρ c (Proc.devRef .tc main_v60)
    = userOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg9)) (m ((c.tc : Thread nD τ).loc main_arg10)) := by
  rw [last_boundary m ρ c]
  simp only [opGate, opScale, opEdge, hostOps0, hostOps1, hostOps2]
  after_results_simp
  rfl

end Cert.KernelIdeal.Line

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«104708_j67336497267219_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.LibLogisticTanh.lean ====
/-
  The logistic function written with a hyperbolic tangent, on the extended reals.

  For a real z, (1/2)·(1 + tanh(z/2)) = 1/(1 + e^(-z)): with a = e^(z/2), tanh(z/2) = (a - 1/a)/(a + 1/a), so
  1 + tanh(z/2) = 2a/(a + 1/a) = 2/(1 + 1/a²), and 1/a² = e^(-z).  At +∞ both sides are 1 (tanh is 1 there and
  e^(-∞) = 0); at -∞ both are 0 (tanh is -1 there, and 1/(1 + ∞) = 0).  So the two spellings are one function
  on all of [-∞, +∞], and no finiteness is needed to pass from one to the other.
-/
import Idealize.ShloMosaic.PureOps.Ideal

noncomputable section

namespace Cert.LogisticTanh

open Idealize.ShloMosaic

/-- The single-precision pattern of 0.5 denotes the real 1/2. -/
theorem ofBits_half : Ideal.ofBits .f32 0x3F000000#32 = ((1 / 2 : ℝ) : EReal) := by
  simp [Ideal.ofBits, Ideal.ieee, -EReal.coe_mul]; norm_num

/-- The single-precision pattern of 1.0 denotes 1. -/
theorem ofBits_one : Ideal.ofBits .f32 0x3F800000#32 = 1 := by
  simp [Ideal.ofBits, Ideal.ieee, -EReal.coe_mul]; norm_num

/-- On the reals: half of one plus the tangent of half the argument is the logistic function. -/
theorem real_half_tanh (r : ℝ) : (1 / 2 : ℝ) * (1 + Real.tanh (1 / 2 * r)) = (1 + Real.exp (-r))⁻¹ := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  generalize Real.exp (1 / 2 * r) = a at ha
  have h0 : a ≠ 0 := ha.ne'
  have h1 : a + a⁻¹ ≠ 0 := by positivity
  have h2 : 1 + a⁻¹ * a⁻¹ ≠ 0 := by positivity
  field_simp
  ring

/-- On the extended reals, infinities included. -/
theorem half_tanh_eq_logistic (z : EReal) :
    ((1 / 2 : ℝ) : EReal) * (1 + Ideal.tanh (((1 / 2 : ℝ) : EReal) * z)) = Ideal.logistic z := by
  induction z using EReal.rec with
  | bot =>
    rw [EReal.coe_mul_bot_of_pos (by norm_num), Ideal.tanh_bot, Ideal.logistic_bot]
    have h : (1 : EReal) + -1 = 0 := by
      rw [← EReal.coe_one, ← EReal.coe_neg, ← EReal.coe_add, add_neg_cancel, EReal.coe_zero]
    rw [h, mul_zero]
  | coe r =>
    rw [← EReal.coe_mul, Ideal.tanh_coe, Ideal.logistic_coe, ← EReal.coe_one, ← EReal.coe_add, ← EReal.coe_mul,
      real_half_tanh]
  | top =>
    rw [EReal.coe_mul_top_of_pos (by norm_num), Ideal.tanh_top, Ideal.logistic_top, ← EReal.coe_one, ← EReal.coe_add,
      ← EReal.coe_mul]
    norm_num

/-- The tangent spelling over the bit patterns a program writes the two constants with. -/
theorem half_tanh_bits (z : EReal) :
    Ideal.ofBits .f32 0x3F000000#32 * (Ideal.ofBits .f32 0x3F800000#32 + Ideal.tanh (Ideal.ofBits .f32 0x3F000000#32 * z))
      = Ideal.logistic z := by
  rw [ofBits_half, ofBits_one, half_tanh_eq_logistic]

/-- The quotient spelling `1 / (1 + e^(-z))` over the bit pattern a program writes the constant with. -/
theorem quotient_bits (z : EReal) :
    Ideal.div (Ideal.ofBits .f32 0x3F800000#32) (Ideal.ofBits .f32 0x3F800000#32 + Ideal.exp (-z)) = Ideal.logistic z := by
  rw [ofBits_one]
  rfl

end Cert.LogisticTanh

end
-- ==== Proof.HostPointwise.lean ====
/-
  Host operations applied entry by entry, read at one index.

  A quotient whose denominator is a sum with an exponential of a negated array, and an exponential of a difference of
  two arrays, are computed entry by entry: at an index they are the same expressions of the arrays' entries there.
-/
import Idealize.ShloMosaic.PureOps.Ideal
import Idealize.ShloMosaic.Lib.ValueIdx

noncomputable section

namespace Cert.HostPointwise

open Idealize.ShloMosaic

variable {s : Shape} {φ : FTy}

/-- A / (B + exp (−R)) at an index. -/
theorem quotient_apply (A B R : FVec Ideal s φ) (i : s.Idx) :
    Host.divf (F := Ideal) A (addf B (Host.exp (F := Ideal) (Host.negf (F := Ideal) R))) i
      = Ideal.div (A i) (B i + Ideal.exp (-(R i))) := rfl

/-- exp (X − Y) at an index. -/
theorem exp_sub_apply (X Y : FVec Ideal s φ) (i : s.Idx) :
    Host.exp (F := Ideal) (subf X Y) i = Ideal.exp (X i - Y i) := rfl

/-- X / Y at an index. -/
theorem div_apply (X Y : FVec Ideal s φ) (i : s.Idx) :
    Host.divf (F := Ideal) X Y i = Ideal.div (X i) (Y i) := rfl

end Cert.HostPointwise

end
-- ==== Proof.BridgeEdge.lean ====
/-
  The reference's spelling of the edge messages and of the scaled rows is the kernel's.

  The reference takes each edge's gate as 1 / (1 + exp (−s)) of the sum s of the channel products, started from
  zero; that is the logistic function of the plain sum on every extended real.  It lays the gates out as a column and
  repeats them along the channels, which only moves coordinates.  The scaled rows differ only in how the column of
  interaction values is laid out.
-/
import proofs.«104708_j67336497267219_1_alg».proof.Proof.ArraysEdge
import proofs.«104708_j67336497267219_1_alg».proof.Proof.ArraysScale
import proofs.«104708_j67336497267219_1_alg».proof.Proof.Gen.ReferenceIdeal
import proofs.«104708_j67336497267219_1_alg».proof.Proof.LibHostRowOps
import proofs.«104708_j67336497267219_1_alg».proof.Proof.LibLogisticTanh
import proofs.«104708_j67336497267219_1_alg».proof.Proof.HostPointwise

set_option maxRecDepth 16384

noncomputable section

namespace Cert.Bridge

open Idealize.ShloMosaic Idealize.ShloMosaic.ValueIdx
open Cert.ReferenceIdeal Cert.ReferenceIdeal.Facts₀ Cert.ReferenceIdeal.Facts Cert.Spec

/-- The gate of edge e in the reference's spelling. -/
theorem ref_gate (EH REL : FVec Ideal S1600000x64 .f32) (e : Fin 1600000) :
    Host.divf (F := Ideal) (broadcastInDim S1600000 ![] bcast_S_S1600000 (constant (F := Ideal) S_ .f32 0x3F800000#32))
        (addf (broadcastInDim S1600000 ![] bcast_S_S1600000 (constant (F := Ideal) S_ .f32 0x3F800000#32))
          (Host.exp (F := Ideal) (Host.negf (F := Ideal) (Host.reduceAdd (F := Ideal) (mulf EH REL) (constant (F := Ideal) S_ .f32 0x00000000#32)
            reducesTo_S1600000x64_S1600000_d1 h_S_)))) (ix1 e)
      = Ideal.logistic (∑ k : Fin 64, EH (ix2 e k) * REL (ix2 e k)) := by
  have hs : Host.reduceAdd (F := Ideal) (mulf EH REL) (constant (F := Ideal) S_ .f32 0x00000000#32)
      reducesTo_S1600000x64_S1600000_d1 h_S_ (ix1 e) = ∑ k : Fin 64, EH (ix2 e k) * REL (ix2 e k) :=
    (HostRowOps.rowSum_apply (mulf EH REL) (constant (F := Ideal) S_ .f32 0x00000000#32)
      reducesTo_S1600000x64_S1600000_d1 (by decide) h_S_ e).trans
      ((congrArg (· + ∑ k : Fin 64, EH (ix2 e k) * REL (ix2 e k)) Ideal.ofBits_zero_f32).trans (zero_add _))
  have hone : broadcastInDim S1600000 ![] bcast_S_S1600000 (constant (F := Ideal) S_ .f32 0x3F800000#32) (ix1 e)
      = Ideal.ofBits .f32 0x3F800000#32 := broadcastInDim_scalar_apply bcast_S_S1600000 _ (ix1 e)
  rw [HostPointwise.quotient_apply, hone, hs]
  exact LogisticTanh.quotient_bits _

/-- The reference's edge messages are the kernel's function of the three gathered arrays. -/
theorem edges_eq (EH ET REL : FVec Ideal S1600000x64 .f32) :
    mulf (broadcastInDim S1600000x64 ![0, 1] bcast_S1600000x1_S1600000x64_0_1
        (broadcastInDim S1600000x1 ![0] bcast_S1600000_S1600000x1_0
          (Host.divf (F := Ideal) (broadcastInDim S1600000 ![] bcast_S_S1600000 (constant (F := Ideal) S_ .f32 0x3F800000#32))
            (addf (broadcastInDim S1600000 ![] bcast_S_S1600000 (constant (F := Ideal) S_ .f32 0x3F800000#32))
              (Host.exp (F := Ideal) (Host.negf (F := Ideal) (Host.reduceAdd (F := Ideal) (mulf EH REL) (constant (F := Ideal) S_ .f32 0x00000000#32)
                reducesTo_S1600000x64_S1600000_d1 h_S_)))))))
      (mulf ET REL)
    = Cert.KernelIdeal.Arrays.edges EH ET REL := by
  funext i
  obtain ⟨e, c, rfl⟩ : ∃ (e : Fin 1600000) (c : Fin 64), i = ix2 e c := ⟨i 0, i 1, eq_ix2 i⟩
  rw [mulf_apply, HostRowOps.colToMat_apply, HostRowOps.vecToCol_apply, ref_gate]
  rfl

/-- The reference's scaled rows are the kernel's function of the column of values and the gathered rows. -/
theorem scaled_eq (vals : FVec Ideal S1000000 .f32) (E : FVec Ideal S1000000x64 .f32)
    (hc : S1000000.ShapeCasts S1000000x1) :
    mulf (broadcastInDim S1000000x64 ![0, 1] bcast_S1000000x1_S1000000x64_0_1
        (broadcastInDim S1000000x1 ![0] bcast_S1000000_S1000000x1_0 vals)) E
    = Cert.KernelIdeal.Arrays.scaled (shapeCast S1000000x1 vals hc) E := by
  funext i
  obtain ⟨r, c, rfl⟩ : ∃ (r : Fin 1000000) (c : Fin 64), i = ix2 r c := ⟨i 0, i 1, eq_ix2 i⟩
  refine congrArg (· * E (ix2 r c)) ?_
  exact (HostRowOps.colToMat_apply _ bcast_S1000000x1_S1000000x64_0_1 r c).trans
    ((HostRowOps.vecToCol_apply _ bcast_S1000000_S1000000x1_0 r 0).trans
      (RowOps.column_apply vals hc r 0).symm)

end Cert.Bridge

end
-- ==== Proof.BridgeGate.lean ====
/-
  The reference's spelling of the gated aggregates is the kernel's.

  The reference takes each user's logits over the four factors as a plain product with the transposed factors, their
  softmax the same way as the kernel (shift by the larger of −∞ and the row's maximum, exponentiate, divide by the sum
  started from zero), lays the weights out along a third axis against the disentangled weights, multiplies, and sums
  over the factor axis starting from zero: in channel c that is Σ_f d_{f,c} · w_f, the kernel's Σ_f w_f · d_{f,c}.
-/
import proofs.«104708_j67336497267219_1_alg».proof.Proof.ArraysGate
import proofs.«104708_j67336497267219_1_alg».proof.Proof.Gen.ReferenceIdeal
import proofs.«104708_j67336497267219_1_alg».proof.Proof.LibHostRowOps
import proofs.«104708_j67336497267219_1_alg».proof.Proof.HostPointwise

set_option maxRecDepth 16384

noncomputable section

namespace Cert.Bridge

open Idealize.ShloMosaic Idealize.ShloMosaic.ValueIdx
open Cert.ReferenceIdeal Cert.ReferenceIdeal.Facts₀ Cert.ReferenceIdeal.Facts Cert.Spec

theorem plain_logits : RowOps.IsPlain dot_S50000x64_S64x4_S50000x4_1_0_0_1_n_n := ⟨rfl, rfl, rfl, rfl, rfl, rfl⟩

/-- The reference's logits. -/
def refLogits (A0 : FVec Ideal S50000x64 .f32) (A1 : FVec Ideal S4x64 .f32) : FVec Ideal S50000x4 .f32 :=
  (Host.dotGeneral (F := Ideal) dot_S50000x64_S64x4_S50000x4_1_0_0_1_n_n none A0 (transpose S64x4 [1, 0] A1 transposes_S4x64_S64x4_1_0))

theorem refLogits_apply (A0 : FVec Ideal S50000x64 .f32) (A1 : FVec Ideal S4x64 .f32) (u : Fin 50000) (f : Fin 4) :
    refLogits A0 A1 (ix2 u f) = ∑ k : Fin 64, A0 (ix2 u k) * A1 (ix2 f k) :=
  (HostRowOps.dot_apply plain_logits none A0 _ u f).trans (Finset.sum_congr rfl fun k _ =>
    congrArg (A0 (ix2 u k) * ·) (RowOps.swap_apply A1 transposes_S4x64_S64x4_1_0 k f))

/-- The reference's shift of row u. -/
def refShift (L : FVec Ideal S50000x4 .f32) : FVec Ideal S50000x4 .f32 :=
  broadcastInDim S50000x4 ![0, 1] bcast_S50000x1_S50000x4_0_1 (broadcastInDim S50000x1 ![0] bcast_S50000_S50000x1_0
    (maximumf (broadcastInDim S50000 ![] bcast_S_S50000 (constant (F := Ideal) S_ .f32 0xFF800000#32))
      (Host.reduce FloatOps.maximumf L (constant (F := Ideal) S_ .f32 0xFF800000#32) reducesTo_S50000x4_S50000_d1 h_S_)))

theorem refShift_apply (L : FVec Ideal S50000x4 .f32) (u : Fin 50000) (f : Fin 4) :
    refShift L (ix2 u f) = shift (fun g : Fin 4 => L (ix2 u g)) :=
  (HostRowOps.colToMat_apply _ bcast_S50000x1_S50000x4_0_1 u f).trans
    ((HostRowOps.vecToCol_apply _ bcast_S50000_S50000x1_0 u 0).trans
      (congrArg₂ max (broadcastInDim_scalar_apply bcast_S_S50000 _ (ix1 u))
        (HostRowOps.rowMax_apply L (constant (F := Ideal) S_ .f32 0xFF800000#32) reducesTo_S50000x4_S50000_d1 (by decide) h_S_ u)))

/-- The reference's softmax weights. -/
def refWeights (L : FVec Ideal S50000x4 .f32) : FVec Ideal S50000x4 .f32 :=
  Host.divf (F := Ideal) (Host.exp (F := Ideal) (subf L (refShift L)))
    (broadcastInDim S50000x4 ![0, 1] bcast_S50000x1_S50000x4_0_1 (broadcastInDim S50000x1 ![0] bcast_S50000_S50000x1_0
      (Host.reduceAdd (F := Ideal) (Host.exp (F := Ideal) (subf L (refShift L))) (constant (F := Ideal) S_ .f32 0x00000000#32)
        reducesTo_S50000x4_S50000_d1 h_S_)))

theorem refExp_apply (L : FVec Ideal S50000x4 .f32) (u : Fin 50000) (f : Fin 4) :
    Host.exp (F := Ideal) (subf L (refShift L)) (ix2 u f) = Ideal.exp (L (ix2 u f) - shift (fun g : Fin 4 => L (ix2 u g))) :=
  (HostPointwise.exp_sub_apply L (refShift L) (ix2 u f)).trans
    (congrArg (fun z => Ideal.exp (L (ix2 u f) - z)) (refShift_apply L u f))

theorem refWeights_apply (L : FVec Ideal S50000x4 .f32) (u : Fin 50000) (f : Fin 4) :
    refWeights L (ix2 u f) = weight (fun g : Fin 4 => L (ix2 u g)) f := by
  have hsum : broadcastInDim S50000x4 ![0, 1] bcast_S50000x1_S50000x4_0_1 (broadcastInDim S50000x1 ![0] bcast_S50000_S50000x1_0
      (Host.reduceAdd (F := Ideal) (Host.exp (F := Ideal) (subf L (refShift L))) (constant (F := Ideal) S_ .f32 0x00000000#32)
        reducesTo_S50000x4_S50000_d1 h_S_)) (ix2 u f)
      = ∑ g : Fin 4, Ideal.exp (L (ix2 u g) - shift (fun g : Fin 4 => L (ix2 u g))) :=
    (HostRowOps.colToMat_apply _ bcast_S50000x1_S50000x4_0_1 u f).trans
      ((HostRowOps.vecToCol_apply _ bcast_S50000_S50000x1_0 u 0).trans
        ((HostRowOps.rowSum_apply _ (constant (F := Ideal) S_ .f32 0x00000000#32) reducesTo_S50000x4_S50000_d1 (by decide) h_S_ u).trans
          (((congrArg (· + ∑ g : Fin 4, Host.exp (F := Ideal) (subf L (refShift L)) (ix2 u g)) Ideal.ofBits_zero_f32).trans (zero_add _)).trans
            (Finset.sum_congr rfl fun g _ => refExp_apply L u g))))
  unfold refWeights weight
  rw [HostPointwise.div_apply, hsum, refExp_apply]

/-- The reference's gate: the disentangled weights against the softmax weights, summed over the factor axis. -/
theorem refGate_apply (D : FVec Ideal S4x64 .f32) (Wt : FVec Ideal S50000x4 .f32) (u : Fin 50000) (c : Fin 64) :
    Host.reduceAdd (F := Ideal) (mulf
        (broadcastInDim S50000x4x64 ![0, 1, 2] bcast_S1x4x64_S50000x4x64_0_1_2 (broadcastInDim S1x4x64 ![1, 2] bcast_S4x64_S1x4x64_1_2 D))
        (broadcastInDim S50000x4x64 ![0, 1, 2] bcast_S50000x4x1_S50000x4x64_0_1_2 (broadcastInDim S50000x4x1 ![0, 1] bcast_S50000x4_S50000x4x1_0_1 Wt)))
      (constant (F := Ideal) S_ .f32 0x00000000#32) reducesTo_S50000x4x64_S50000x64_d1 h_S_ (ix2 u c)
    = ∑ f : Fin 4, Wt (ix2 u f) * D (ix2 f c) := by
  have key : ∀ f : Fin 4, mulf
        (broadcastInDim S50000x4x64 ![0, 1, 2] bcast_S1x4x64_S50000x4x64_0_1_2 (broadcastInDim S1x4x64 ![1, 2] bcast_S4x64_S1x4x64_1_2 D))
        (broadcastInDim S50000x4x64 ![0, 1, 2] bcast_S50000x4x1_S50000x4x64_0_1_2 (broadcastInDim S50000x4x1 ![0, 1] bcast_S50000x4_S50000x4x1_0_1 Wt))
        (Shape.Reduces.lift (by decide : S50000x4x64.Reduces [1] S50000x64) (ix2 u c) f)
      = Wt (ix2 u f) * D (ix2 f c) := by
    intro f
    have hi : (Shape.Reduces.lift (by decide : S50000x4x64.Reduces [1] S50000x64) (ix2 u c) f : S50000x4x64.Idx) = ix3 u f c :=
      funext fun a => Fin.ext (by match a with | ⟨0, _⟩ => rfl | ⟨1, _⟩ => rfl | ⟨2, _⟩ => rfl)
    have hd : broadcastInDim S50000x4x64 ![0, 1, 2] bcast_S1x4x64_S50000x4x64_0_1_2 (broadcastInDim S1x4x64 ![1, 2] bcast_S4x64_S1x4x64_1_2 D) (ix3 u f c)
        = D (ix2 f c) :=
      (broadcastInDim_apply _ bcast_S1x4x64_S50000x4x64_0_1_2 _ (ix3 u f c) (ix3 (0 : Fin 1) f c) (fun a => match a with
        | ⟨0, _⟩ => by show 0 = if (1 : Nat) = 1 then 0 else u.val; rw [if_pos rfl]
        | ⟨1, _⟩ => by show f.val = if (4 : Nat) = 1 then 0 else f.val; rw [if_neg (by decide)]
        | ⟨2, _⟩ => by show c.val = if (64 : Nat) = 1 then 0 else c.val; rw [if_neg (by decide)])).trans
      (broadcastInDim_apply _ bcast_S4x64_S1x4x64_1_2 D (ix3 (0 : Fin 1) f c) (ix2 f c) (fun a => match a with
        | ⟨0, _⟩ => by show f.val = if (4 : Nat) = 1 then 0 else f.val; rw [if_neg (by decide)]
        | ⟨1, _⟩ => by show c.val = if (64 : Nat) = 1 then 0 else c.val; rw [if_neg (by decide)]))
    have hw : broadcastInDim S50000x4x64 ![0, 1, 2] bcast_S50000x4x1_S50000x4x64_0_1_2 (broadcastInDim S50000x4x1 ![0, 1] bcast_S50000x4_S50000x4x1_0_1 Wt) (ix3 u f c)
        = Wt (ix2 u f) :=
      (broadcastInDim_apply _ bcast_S50000x4x1_S50000x4x64_0_1_2 _ (ix3 u f c) (ix3 u f (0 : Fin 1)) (fun a => match a with
        | ⟨0, _⟩ => by show u.val = if (50000 : Nat) = 1 then 0 else u.val; rw [if_neg (by decide)]
        | ⟨1, _⟩ => by show f.val = if (4 : Nat) = 1 then 0 else f.val; rw [if_neg (by decide)]
        | ⟨2, _⟩ => by show 0 = if (1 : Nat) = 1 then 0 else c.val; rw [if_pos rfl])).trans
      (broadcastInDim_apply _ bcast_S50000x4_S50000x4x1_0_1 Wt (ix3 u f (0 : Fin 1)) (ix2 u f) (fun a => match a with
        | ⟨0, _⟩ => by show u.val = if (50000 : Nat) = 1 then 0 else u.val; rw [if_neg (by decide)]
        | ⟨1, _⟩ => by show f.val = if (4 : Nat) = 1 then 0 else f.val; rw [if_neg (by decide)]))
    rw [hi, mulf_apply, hd, hw, mul_comm]
  rw [hostReduceAdd_apply, Ideal.hostReduceAdd_single reducesTo_S50000x4x64_S50000x64_d1 (by decide)]
  refine ((congrArg (· + _) Ideal.ofBits_zero_f32).trans (zero_add _)).trans ?_
  exact Finset.sum_congr rfl fun f _ => key f

/-- The reference's gated aggregates are the kernel's function of the four arrays. -/
theorem gated_eq (A0 : FVec Ideal S50000x64 .f32) (A1 D : FVec Ideal S4x64 .f32) (U : FVec Ideal S50000x64 .f32) :
    addf (mulf U (Host.reduceAdd (F := Ideal) (mulf
        (broadcastInDim S50000x4x64 ![0, 1, 2] bcast_S1x4x64_S50000x4x64_0_1_2 (broadcastInDim S1x4x64 ![1, 2] bcast_S4x64_S1x4x64_1_2 D))
        (broadcastInDim S50000x4x64 ![0, 1, 2] bcast_S50000x4x1_S50000x4x64_0_1_2 (broadcastInDim S50000x4x1 ![0, 1] bcast_S50000x4_S50000x4x1_0_1
          (refWeights (refLogits A0 A1)))))
      (constant (F := Ideal) S_ .f32 0x00000000#32) reducesTo_S50000x4x64_S50000x64_d1 h_S_)) U
    = Cert.KernelIdeal.Arrays.gatedAll A0 A1 D U := by
  funext i
  obtain ⟨u, c, rfl⟩ : ∃ (u : Fin 50000) (c : Fin 64), i = ix2 u c := ⟨i 0, i 1, eq_ix2 i⟩
  rw [addf_apply, mulf_apply, refGate_apply]
  simp only [refWeights_apply, refLogits_apply]
  rfl

end Cert.Bridge

end
-- ==== Proof.lean ====
/-
  The knowledge-graph aggregator kernel against its jnp reference, on the extended reals.

  Both programs compute two arrays.  The entity aggregate: for every edge, the logistic gate of the inner product of
  its head row with its relation row, times the product of its tail row with its relation row; the messages of each
  head entity are added up and divided by the larger of one and the number of its edges.  The user aggregate: the
  interactions' entity rows, scaled by the interaction values, are added up per user, and each user's sum is gated by
  the softmax weights of the user's logits over four latent factors applied to the disentangled relation weights.

  The kernel computes the messages, the scaled rows and the gating in three pipelined regions over row blocks, and the
  rest with host operations; the reference computes everything with host operations.  Block by block, each region
  writes the restriction of one function of whole arrays, so the kernel program is one line of operations.  The two
  lines differ in three places only, none of which needs a finite input: the gate as the logistic function against
  1 / (1 + exp (−s)) with s summed from zero, which are one function on all of [−∞, +∞]; the order of the two factors
  inside the sum over the latent factors; and the layouts through which a column is repeated along an axis.
-/
import proofs.«104708_j67336497267219_1_alg».proof.Defs
import proofs.«104708_j67336497267219_1_alg».proof.Proof.Gen.Kernel
import proofs.«104708_j67336497267219_1_alg».proof.Proof.Gen.Kernel.Frame
import proofs.«104708_j67336497267219_1_alg».proof.Proof.Gen.KernelIdeal
import proofs.«104708_j67336497267219_1_alg».proof.Proof.Gen.KernelIdeal.Frame
import proofs.«104708_j67336497267219_1_alg».proof.Proof.Gen.ReferenceIdeal
import proofs.«104708_j67336497267219_1_alg».proof.Proof.Gen.Pre_finite_inputs
import proofs.«104708_j67336497267219_1_alg».proof.Proof.Gen.ReferenceIdeal.Run
import proofs.«104708_j67336497267219_1_alg».proof.Proof.KernelRun
import proofs.«104708_j67336497267219_1_alg».proof.Proof.KernelValue
import proofs.«104708_j67336497267219_1_alg».proof.Proof.BridgeEdge
import proofs.«104708_j67336497267219_1_alg».proof.Proof.BridgeGate
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both programs end with the entity aggregate and the user aggregate of the arguments. -/
theorem algebraic : Cert.algebraic_KernelIdeal_ReferenceIdeal := by
  intro m ρ m' ρ' _ hagree
  refine ⟨fun c => Cert.KernelIdeal.Line.entityOut (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.Line.userOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Line.entity_val m ρ c), (h c).2.1.trans (Cert.KernelIdeal.Line.user_val m ρ c), (h c).2.2⟩)
      (Cert.KernelIdeal.Whole.run_results (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      rw [h0, h3, h6, h7, h8]
      beta_reduce
      unfold Cert.KernelIdeal.Line.entityOut
      rw [← Cert.Bridge.edges_eq]
      rfl
    · obtain ⟨h0, h1, h2, h3, h4, h5, h6, h7, h8, h9, h10⟩ := hagree c
      unfold Cert.ReferenceIdeal.Value.res_main_v93
      rw [h0, h1, h2, h3, h4, h5, h9, h10]
      beta_reduce
      unfold Cert.KernelIdeal.Line.userOut
      rw [← Cert.Bridge.gated_eq, ← Cert.Bridge.scaled_eq]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
